-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2x512x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x768 : Shape := ⟨3, ![8, 512, 768]⟩
abbrev S128x768 : Shape := ⟨2, ![128, 768]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S128x768 : S_.BroadcastsInDim S128x768 (![] : Fin 0 → Fin S128x768.rank)
  reducesTo_S128x768_S_d0_1 : S128x768.ReducesTo [0, 1] S_

variable [Facts]

def fn {F : FTy → Type} [FloatOps F] (main_arg0 : FVec F S8x512x768 .f32) (main_arg1 : FVec F S128x768 .f32) (main_arg2 : FVec F S128x768 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  main_v13
-- ==== Kernel.lean ====
abbrev S8x512x768 : Shape := ⟨3, ![8, 512, 768]⟩
abbrev S128x768 : Shape := ⟨2, ![128, 768]⟩
abbrev S256x768 : Shape := ⟨2, ![256, 768]⟩
abbrev S8x512x512 : Shape := ⟨3, ![8, 512, 512]⟩
abbrev S8x1x512 : Shape := ⟨3, ![8, 1, 512]⟩
abbrev S2x512x768 : Shape := ⟨3, ![2, 512, 768]⟩
abbrev S2x512x512 : Shape := ⟨3, ![2, 512, 512]⟩
abbrev S2x1x512 : Shape := ⟨3, ![2, 1, 512]⟩
abbrev S1024x768 : Shape := ⟨2, ![1024, 768]⟩
abbrev S768x256 : Shape := ⟨2, ![768, 256]⟩
abbrev S1024x256 : Shape := ⟨2, ![1024, 256]⟩
abbrev S2x512x256 : Shape := ⟨3, ![2, 512, 256]⟩
abbrev S2x512x128 : Shape := ⟨3, ![2, 512, 128]⟩
abbrev S2x512 : Shape := ⟨2, ![2, 512]⟩
abbrev S2x512x1 : Shape := ⟨3, ![2, 512, 1]⟩
abbrev S8x512 : Shape := ⟨2, ![8, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x512x768, .f32⟩
  | .hbm, ⟨1, _⟩ => ⟨S128x768, .f32⟩
  | .hbm, ⟨2, _⟩ => ⟨S128x768, .f32⟩
  | .hbm, ⟨3, _⟩ => ⟨S256x768, .f32⟩
  | .hbm, ⟨4, _⟩ => ⟨S8x512x512, .f32⟩
  | .hbm, ⟨5, _⟩ => ⟨S8x1x512, .f32⟩
  | .hbm, ⟨6, _⟩ => ⟨S8x512, .f32⟩
  | .local _ .vmem, ⟨0, _⟩ => ⟨S2x512x768, .f32⟩
  | .local _ .vmem, ⟨1, _⟩ => ⟨S2x512x768, .f32⟩
  | .local _ .vmem, ⟨2, _⟩ => ⟨S256x768, .f32⟩
  | .local _ .vmem, ⟨3, _⟩ => ⟨S2x512x512, .f32⟩
  | .local _ .vmem, ⟨4, _⟩ => ⟨S2x512x512, .f32⟩
  | .local _ .vmem, ⟨5, _⟩ => ⟨S2x1x512, .f32⟩
  | .local _ .vmem, ⟨6, _⟩ => ⟨S2x1x512, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S128x768_S128x768_S256x768_d0 : Shape.Concatenates [S128x768, S128x768] S256x768 0
  inb_S2x512x768_S2x512x768_0_0_0 : ∀ a, (![0, 0, 0] : Fin 3 → Nat) a + S2x512x768.size a ≤ S2x512x768.size a
  h_S2x512x768 : 0 < S2x512x768.numel
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  shapeCasts_S2x512x768_S1024x768 : S2x512x768.ShapeCasts S1024x768
  transposes_S256x768_p1_0_S768x256 : S256x768.Transposes [1, 0] S768x256
  shapeCasts_S1024x256_S2x512x256 : S1024x256.ShapeCasts S2x512x256
  slices_S2x512x256_o0_0_0_S2x512x128 : S2x512x256.Slices ![0, 0, 0] S2x512x128
  slices_S2x512x256_o0_0_128_S2x512x128 : S2x512x256.Slices ![0, 0, 128] S2x512x128
  reduces_S2x512x128_S2x512 : S2x512x128.Reduces [2] S2x512
  shapeCasts_S2x512_S2x512x1 : S2x512.ShapeCasts S2x512x1
  transposes_S2x512x1_p0_2_1_S2x1x512 : S2x512x1.Transposes [0, 2, 1] S2x1x512
  inb_S2x1x512_S2x1x512_0_0_0 : ∀ a, (![0, 0, 0] : Fin 3 → Nat) a + S2x1x512.size a ≤ S2x1x512.size a
  h_S2x1x512 : 0 < S2x1x512.numel
  broadcasts_S2x512x1_S2x512x512 : S2x512x1.Broadcasts S2x512x512
  broadcasts_S2x1x512_S2x512x512 : S2x1x512.Broadcasts S2x512x512
  inb_S2x512x512_S2x512x512_0_0_0 : ∀ a, (![0, 0, 0] : Fin 3 → Nat) a + S2x512x512.size a ≤ S2x512x512.size a
  h_S2x512x512 : 0 < S2x512x512.numel
  shapeCasts_S8x1x512_S8x512 : S8x1x512.ShapeCasts S8x512
  dot_S1024x768_S768x256_S1024x256_1_0_0_1_n_n_wf : DotDims.WF S1024x768 S768x256 S1024x256 [1] [0] [0] [1] [] []
  dot_S2x512x128_S2x512x128_S2x512x512_2_2_1_1_0_0_wf : DotDims.WF S2x512x128 S2x512x128 S2x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x768.size a ≤ S8x512x768.size a
  hwx0_0 : ∀ i : grid0.Coords, EltTy.bits .f32 = 32 ∨ (Rect.block (s := S8x512x768) S2x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S8x512x512.size a
  hwx0_2 : ∀ i : grid0.Coords, EltTy.bits .f32 = 32 ∨ (Rect.block (s := S8x512x512) S2x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x512.size a ≤ S8x1x512.size a
  hwx0_3 : ∀ i : grid0.Coords, EltTy.bits .f32 = 32 ∨ (Rect.block (s := S8x1x512) S2x1x512.size (cc0_transform_3 i) (hinb0_3 i)).WholeWords (EltTy.packing .f32)

variable [Facts₀]

def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf
def dot_S2x512x128_S2x512x128_S2x512x512_2_2_1_1_0_0 : DotDims S2x512x128 S2x512x128 S2x512x512 where
  lhsContracting := [2]
  rhsContracting := [2]
  lhsNonContracting := [1]
  rhsNonContracting := [1]
  lhsBatch := [0]
  rhsBatch := [0]
  wf := dot_S2x512x128_S2x512x128_S2x512x512_2_2_1_1_0_0_wf

abbrev win0_0 : Pipeline.Window sig grid0 :=
  Pipeline.Window.ofSpec (Memref.whole main_arg0) S2x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x768 : Shape := ⟨3, ![8, 512, 768]⟩
abbrev S128x768 : Shape := ⟨2, ![128, 768]⟩
abbrev S8x512x128 : Shape := ⟨3, ![8, 512, 128]⟩
abbrev S8x512x1x128 : Shape := ⟨4, ![8, 512, 1, 128]⟩
abbrev S8x1x512x128 : Shape := ⟨4, ![8, 1, 512, 128]⟩
abbrev S8x512x512x128 : Shape := ⟨4, ![8, 512, 512, 128]⟩
abbrev S_ : Shape := ⟨0, ![]⟩
abbrev S8x512x512 : Shape := ⟨3, ![8, 512, 512]⟩
abbrev S8x512 : Shape := ⟨2, ![8, 512]⟩

abbrev nBuf : Space → Nat
  | .hbm => 16
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S128x768, .f32⟩
  | .hbm, ⟨2, _⟩ => ⟨S128x768, .f32⟩
  | .hbm, ⟨3, _⟩ => ⟨S8x512x128, .f32⟩
  | .hbm, ⟨4, _⟩ => ⟨S8x512x1x128, .f32⟩
  | .hbm, ⟨5, _⟩ => ⟨S8x1x512x128, .f32⟩
  | .hbm, ⟨6, _⟩ => ⟨S8x512x512x128, .f32⟩
  | .hbm, ⟨7, _⟩ => ⟨S8x512x512x128, .f32⟩
  | .hbm, ⟨8, _⟩ => ⟨S8x512x512x128, .f32⟩
  | .hbm, ⟨9, _⟩ => ⟨S8x512x512x128, .f32⟩
  | .hbm, ⟨10, _⟩ => ⟨S_, .f32⟩
  | .hbm, ⟨11, _⟩ => ⟨S8x512x512, .f32⟩
  | .hbm, ⟨12, _⟩ => ⟨S8x512x128, .f32⟩
  | .hbm, ⟨13, _⟩ => ⟨S8x512x128, .f32⟩
  | .hbm, ⟨14, _⟩ => ⟨S_, .f32⟩
  | .hbm, ⟨15, _⟩ => ⟨S8x512, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S8x512x128_S8x512x1x128_0_1_3 : S8x512x128.BroadcastsInDim S8x512x1x128 (![0, 1, 3] : Fin 3 → Fin S8x512x1x128.rank)
  bcast_S8x512x128_S8x1x512x128_0_2_3 : S8x512x128.BroadcastsInDim S8x1x512x128 (![0, 2, 3] : Fin 3 → Fin S8x1x512x128.rank)
  bcast_S8x512x1x128_S8x512x512x128_0_1_2_3 : S8x512x1x128.BroadcastsInDim S8x512x512x128 (![0, 1, 2, 3] : Fin 4 → Fin S8x512x512x128.rank)
  bcast_S8x1x512x128_S8x512x512x128_0_1_2_3 : S8x1x512x128.BroadcastsInDim S8x512x512x128 (![0, 1, 2, 3] : Fin 4 → Fin S8x512x512x128.rank)
  reducesTo_S8x512x512x128_S8x512x512_d3 : S8x512x512x128.ReducesTo [3] S8x512x512
  h_S_ : 0 < S_.numel
  reducesTo_S8x512x128_S8x512_d2 : S8x512x128.ReducesTo [2] S8x512
  dot_S8x512x768_S128x768_S8x512x128_2_1_01_0_n_n_wf : DotDims.WF S8x512x768 S128x768 S8x512x128 [2] [1] [0, 1] [0] [] []

variable [Facts₀]

def dot_S8x512x768_S128x768_S8x512x128_2_1_01_0_n_n : DotDims S8x512x768 S128x768 S8x512x128 where
  lhsContracting := [2]
  rhsContracting := [1]
  lhsNonContracting := [0, 1]
  rhsNonContracting := [0]
  lhsBatch := []
  rhsBatch := []
  wf := dot_S8x512x768_S128x768_S8x512x128_2_1_01_0_n_n_wf

class Facts : Prop extends Facts₀ where

variable [Facts]
-- ==== Proof.ERealLaws.lean ====
/-
  Laws on the extended reals used to join the two programs.

  Both programs compute, for rows a and b of a projected batch, the squared Euclidean distance. The reference sums
  (a r - b r)^2 over r; the kernel forms the squared norms and the Gram entry, takes |a|^2 + |b|^2 - 2<a,b> and clamps
  the result below at 0. Over the real numbers the two agree: expanding the square gives the identity, and a sum of
  squares is non-negative, so the clamp changes nothing. On the extended reals the expansion is only valid when every
  summand is a real number, which is why the statements below are about coercions of reals.

  Also here: a finite sum of reals taken in the extended reals is the real sum; the bit patterns of 2.0 and of +infinity;
  and that an extended real whose absolute value is below +infinity is a real number.
-/
import Idealize.ShloMosaic.PureOps.Ideal.Laws

noncomputable section

namespace Cert.PairDist

open Idealize.ShloMosaic

/-- A finite sum of real numbers, taken in the extended reals, is the coercion of the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- An inner product of two real families, taken in the extended reals, is the coercion of the real inner product. -/
theorem dot_coe {ι : Type*} [Fintype ι] (e p : ι → ℝ) :
    (∑ k, (e k : EReal) * (p k : EReal)) = ((∑ k, e k * p k : ℝ) : EReal) := by
  rw [← coe_sum]
  exact Finset.sum_congr rfl fun k _ => (EReal.coe_mul _ _).symm

/-- The pattern of `2.0` denotes the real number 2. -/
theorem ofBits_two : Ideal.ofBits .f32 0x40000000#32 = ((2 : ℝ) : EReal) := by
  simp [Ideal.ofBits, Ideal.ieee, -EReal.coe_mul]; norm_num

/-- The pattern `0x7F800000` denotes +infinity. -/
theorem ofBits_inf : Ideal.ofBits .f32 0x7F800000#32 = ⊤ := by
  simp [Ideal.ofBits, Ideal.ieee]

/-- Over the reals: the sum of squared differences is the two squared norms less twice the inner product. -/
theorem sq_dist_real {ι : Type*} [Fintype ι] (a b : ι → ℝ) :
    ∑ r, (a r - b r) * (a r - b r) = (∑ r, a r * a r + ∑ r, b r * b r) - 2 * ∑ r, a r * b r := by
  rw [Finset.mul_sum, ← Finset.sum_add_distrib, ← Finset.sum_sub_distrib]
  exact Finset.sum_congr rfl fun r _ => by ring

/-- The Gram form clamped at 0 is the sum of squared differences, for real entries read in the extended reals. -/
theorem gram_law {ι : Type*} [Fintype ι] (a b : ι → ℝ) :
    max (((∑ r, (a r : EReal) * (a r : EReal)) + ∑ r, (b r : EReal) * (b r : EReal))
          - ((2 : ℝ) : EReal) * ∑ r, (a r : EReal) * (b r : EReal)) 0
      = 0 + ∑ r, ((a r : EReal) - (b r : EReal)) * ((a r : EReal) - (b r : EReal)) := by
  have hs : (∑ r, ((a r : EReal) - (b r : EReal)) * ((a r : EReal) - (b r : EReal)))
      = ((∑ r, (a r - b r) * (a r - b r) : ℝ) : EReal) := by
    rw [← coe_sum]
    exact Finset.sum_congr rfl fun r _ => by rw [← EReal.coe_sub, ← EReal.coe_mul]
  have h0 : (0 : ℝ) ≤ (∑ r, a r * a r + ∑ r, b r * b r) - 2 * ∑ r, a r * b r := by
    rw [← sq_dist_real]
    exact Finset.sum_nonneg fun r _ => mul_self_nonneg _
  rw [dot_coe, dot_coe, dot_coe, ← EReal.coe_add, ← EReal.coe_mul, ← EReal.coe_sub, hs, zero_add, sq_dist_real]
  exact max_eq_left (EReal.coe_nonneg.mpr h0)

/-- An extended real whose absolute value `max x (-x)` is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

end Cert.PairDist

end
-- ==== Proof.Spec.lean ====
/-
  What both programs compute, entry by entry.

  The inputs are a batch of embeddings E[b, s, k] (512 rows of 768 numbers per batch) and a stacked projection matrix
  St[j, k] of 256 rows: rows 0..127 project to the "distance" subspace, rows 128..255 to the "depth" subspace. The
  projection table is q[b, s, j] = sum_k E[b, s, k] * St[j, k]. From it:
    * the squared norm of row s in the distance subspace, sqn[b, s] = sum_r q[b, s, r]^2 (r below 128);
    * the Gram entry gram[b, s, t] = sum_r q[b, s, r] * q[b, t, r];
    * the kernel's distance entry, max (sqn[b,s] + sqn[b,t] - 2 * gram[b,s,t]) 0;
    * the depth entry, sum_r q[b, s, 128 + r]^2.
  The reference's distance entry is 0 + sum_r (p[b,s,r] - p[b,t,r])^2 with p the projection by the unstacked distance
  matrix. When every entry of the table is a real number the kernel's form equals the reference's (the Gram identity).

  The batch count B is a parameter, so that the same definitions describe one block of two batches and the whole array of
  eight; `*_block` say that a block's entry is the array's entry at the block's offset.
-/
import Idealize.ShloMosaic.Lib.ValueIdx
import proofs.«155940_j90993177133168_2_alg».proof.Proof.ERealLaws

noncomputable section

namespace Cert.PairDist

open Idealize.ShloMosaic Idealize.ShloMosaic.ValueIdx

/-- Row `r` of the distance half of the stacked projection. -/
def lo (r : Fin 128) : Fin 256 := ⟨r.val, by have := r.isLt; omega⟩
/-- Row `r` of the depth half of the stacked projection. -/
def hi (r : Fin 128) : Fin 256 := ⟨128 + r.val, by have := r.isLt; omega⟩

variable {B : ℕ}

/-- The projection table: entry (b, s, j) is the inner product of embedding row (b, s) with stacked projection row j. -/
def prj (E : (⟨3, ![B, 512, 768]⟩ : Shape).Idx → EReal) (St : (⟨2, ![256, 768]⟩ : Shape).Idx → EReal)
    (b : Fin B) (s : Fin 512) (j : Fin 256) : EReal :=
  ∑ k : Fin 768, E (ix3 b s k) * St (ix2 j k)

/-- Squared norm of row (b, s) in the distance subspace. -/
def sqn (q : Fin B → Fin 512 → Fin 256 → EReal) (b : Fin B) (s : Fin 512) : EReal :=
  ∑ r : Fin 128, q b s (lo r) * q b s (lo r)

/-- Gram entry of rows (b, s) and (b, t) in the distance subspace. -/
def gram (q : Fin B → Fin 512 → Fin 256 → EReal) (b : Fin B) (s t : Fin 512) : EReal :=
  ∑ r : Fin 128, q b s (lo r) * q b t (lo r)

/-- Squared norm of row (b, s) in the depth subspace. -/
def depthQ (q : Fin B → Fin 512 → Fin 256 → EReal) (b : Fin B) (s : Fin 512) : EReal :=
  ∑ r : Fin 128, q b s (hi r) * q b s (hi r)

/-- The kernel's distance entry: the Gram form clamped below at 0 (the literals are 2.0 and 0.0). -/
def distQ (q : Fin B → Fin 512 → Fin 256 → EReal) (b : Fin B) (s t : Fin 512) : EReal :=
  max ((sqn q b s + sqn q b t) - Ideal.ofBits .f32 0x40000000#32 * gram q b s t) (Ideal.ofBits .f32 0x00000000#32)

/-- A block of the embeddings at batch offset `o` has, row by row, the array's projection table. -/
theorem prj_block (E : (⟨3, ![8, 512, 768]⟩ : Shape).Idx → EReal) (x0 : (⟨3, ![2, 512, 768]⟩ : Shape).Idx → EReal)
    (St x1 : (⟨2, ![256, 768]⟩ : Shape).Idx → EReal) (β : Fin 2 → Fin 8)
    (h0 : ∀ (b : Fin 2) (s : Fin 512) (k : Fin 768), x0 (ix3 b s k) = E (ix3 (β b) s k))
    (h1 : ∀ (j : Fin 256) (k : Fin 768), x1 (ix2 j k) = St (ix2 j k)) (b : Fin 2) (s : Fin 512) (j : Fin 256) :
    prj x0 x1 b s j = prj E St (β b) s j := by
  unfold prj
  exact Finset.sum_congr rfl fun k _ => by rw [h0, h1]

/-- So a block's distance entry is the array's at the block's batch. -/
theorem distQ_block (E : (⟨3, ![8, 512, 768]⟩ : Shape).Idx → EReal) (x0 : (⟨3, ![2, 512, 768]⟩ : Shape).Idx → EReal)
    (St x1 : (⟨2, ![256, 768]⟩ : Shape).Idx → EReal) (β : Fin 2 → Fin 8)
    (h0 : ∀ (b : Fin 2) (s : Fin 512) (k : Fin 768), x0 (ix3 b s k) = E (ix3 (β b) s k))
    (h1 : ∀ (j : Fin 256) (k : Fin 768), x1 (ix2 j k) = St (ix2 j k)) (b : Fin 2) (s t : Fin 512) :
    distQ (prj x0 x1) b s t = distQ (prj E St) (β b) s t := by
  unfold distQ sqn gram
  simp only [prj_block E x0 St x1 β h0 h1]

/-- And its depth entry likewise. -/
theorem depthQ_block (E : (⟨3, ![8, 512, 768]⟩ : Shape).Idx → EReal) (x0 : (⟨3, ![2, 512, 768]⟩ : Shape).Idx → EReal)
    (St x1 : (⟨2, ![256, 768]⟩ : Shape).Idx → EReal) (β : Fin 2 → Fin 8)
    (h0 : ∀ (b : Fin 2) (s : Fin 512) (k : Fin 768), x0 (ix3 b s k) = E (ix3 (β b) s k))
    (h1 : ∀ (j : Fin 256) (k : Fin 768), x1 (ix2 j k) = St (ix2 j k)) (b : Fin 2) (s : Fin 512) :
    depthQ (prj x0 x1) b s = depthQ (prj E St) (β b) s := by
  unfold depthQ
  simp only [prj_block E x0 St x1 β h0 h1]

/-- The reference's projection: embedding row (b, s) against row r of an unstacked 128-row projection matrix. -/
def refPrj (E : (⟨3, ![8, 512, 768]⟩ : Shape).Idx → EReal) (P : (⟨2, ![128, 768]⟩ : Shape).Idx → EReal)
    (b : Fin 8) (s : Fin 512) (r : Fin 128) : EReal :=
  ∑ k : Fin 768, E (ix3 b s k) * P (ix2 r k)

/-- The reference's distance entry: the zero it starts the sum from, plus the squared differences. -/
def refDist (E : (⟨3, ![8, 512, 768]⟩ : Shape).Idx → EReal) (P : (⟨2, ![128, 768]⟩ : Shape).Idx → EReal)
    (b : Fin 8) (s t : Fin 512) : EReal :=
  Ideal.ofBits .f32 0x00000000#32 + ∑ r : Fin 128, (refPrj E P b s r - refPrj E P b t r) * (refPrj E P b s r - refPrj E P b t r)

/-- The reference's depth entry. -/
def refDepth (E : (⟨3, ![8, 512, 768]⟩ : Shape).Idx → EReal) (P : (⟨2, ![128, 768]⟩ : Shape).Idx → EReal)
    (b : Fin 8) (s : Fin 512) : EReal :=
  Ideal.ofBits .f32 0x00000000#32 + ∑ r : Fin 128, refPrj E P b s r * refPrj E P b s r

/-- THE BRIDGE for distances: when the stacked matrix's distance half is `Pd` and every entry of `E` and `Pd` is a real
    number, the kernel's clamped Gram form is the reference's sum of squared differences. -/
theorem distQ_eq_refDist (E : (⟨3, ![8, 512, 768]⟩ : Shape).Idx → EReal) (St : (⟨2, ![256, 768]⟩ : Shape).Idx → EReal)
    (Pd : (⟨2, ![128, 768]⟩ : Shape).Idx → EReal)
    (hlo : ∀ (r : Fin 128) (k : Fin 768), St (ix2 (lo r) k) = Pd (ix2 r k))
    (hE : ∀ i, ∃ x : ℝ, E i = (x : EReal)) (hP : ∀ i, ∃ x : ℝ, Pd i = (x : EReal)) (b : Fin 8) (s t : Fin 512) :
    distQ (prj E St) b s t = refDist E Pd b s t := by
  choose e he using hE
  choose p hp using hP
  have hq : ∀ (s' : Fin 512) (r : Fin 128),
      prj E St b s' (lo r) = ((∑ k : Fin 768, e (ix3 b s' k) * p (ix2 r k) : ℝ) : EReal) := fun s' r => by
    unfold prj
    rw [← dot_coe]
    exact Finset.sum_congr rfl fun k _ => by rw [hlo, he, hp]
  have hr : ∀ (s' : Fin 512) (r : Fin 128),
      refPrj E Pd b s' r = ((∑ k : Fin 768, e (ix3 b s' k) * p (ix2 r k) : ℝ) : EReal) := fun s' r => by
    unfold refPrj
    rw [← dot_coe]
    exact Finset.sum_congr rfl fun k _ => by rw [he, hp]
  unfold distQ sqn gram refDist
  simp only [hq, hr, ofBits_two, Ideal.ofBits_zero_f32]
  exact gram_law _ _

/-- THE BRIDGE for depths: the depth half of the stacked matrix is `Pp`; no finiteness is needed, the two sums are the
    same sum (the reference starts from the zero literal). -/
theorem depthQ_eq_refDepth (E : (⟨3, ![8, 512, 768]⟩ : Shape).Idx → EReal) (St : (⟨2, ![256, 768]⟩ : Shape).Idx → EReal)
    (Pp : (⟨2, ![128, 768]⟩ : Shape).Idx → EReal)
    (hhi : ∀ (r : Fin 128) (k : Fin 768), St (ix2 (hi r) k) = Pp (ix2 r k)) (b : Fin 8) (s : Fin 512) :
    depthQ (prj E St) b s = refDepth E Pp b s := by
  have hq : ∀ r : Fin 128, prj E St b s (hi r) = refPrj E Pp b s r := fun r => by
    unfold prj refPrj
    exact Finset.sum_congr rfl fun k _ => by rw [hhi]
  unfold depthQ refDepth
  simp only [hq, Ideal.ofBits_zero_f32, zero_add]

end Cert.PairDist

end
-- ==== Proof.KernelOps.lean ====
/-
  The kernel body's non-pointwise operations, each read at one entry.

  * The fused projection is a plain matrix product of a [1024, 768] by a [768, 256] matrix into a zero accumulator: entry
    (i, j) is the sum over k of A[i, k] * Bm[k, j].
  * The Gram product is a batched product of a [2, 512, 128] array with itself, contracting the last axis of both and
    batching over the first: entry (b, s, t) is the sum over r of A[b, s, r] * Bm[b, t, r].
  * The lane sum over the last axis of a [2, 512, 128] array from the zero accumulator: entry (b, s) is the sum over r.
  * The layout steps: flattening [2, 512, 768] to [1024, 768] puts (b, s) in row b * 512 + s, and un-flattening
    [1024, 256] to [2, 512, 256] reads it back; the keepdims cast [2, 512] -> [2, 512, 1]; the two slices of the last axis
    at offsets 0 and 128; the two broadcasts of a column [2, 512, 1] and of a row [2, 1, 512] to [2, 512, 512].
-/
import proofs.«155940_j90993177133168_2_alg».proof.Proof.Gen.KernelIdeal
import proofs.«155940_j90993177133168_2_alg».proof.Proof.Spec
import Idealize.ShloMosaic.Lib.Pipeline.Value
import Idealize.ShloMosaic.Lib.ValueLayout
import Idealize.ShloMosaic.PureOps.Ideal.Laws

noncomputable section

namespace Cert.PairDist.KernelOps

open Cert.KernelIdeal Cert.KernelIdeal.Facts₀ Idealize.ShloMosaic Idealize.ShloMosaic.ValueIdx Cert.PairDist

/-- Row b * 512 + s of the flattened batch. -/
def flatRow (b : Fin 2) (s : Fin 512) : Fin 1024 := ⟨b.val * 512 + s.val, by have := b.isLt; have := s.isLt; omega⟩

/-! ## The fused projection: a [1024, 768] by [768, 256] product -/

theorem proj_lhs0 (i : S1024x256.Idx) (q : dot_S1024x768_S768x256_S1024x256_1_0_0_1_n_n.contr.Idx) : (dot_S1024x768_S768x256_S1024x256_1_0_0_1_n_n.lhsIdx i q 0).val = (i 0).val := by
  unfold DotDims.lhsIdx
  rw [dif_neg (show ¬(0 : Fin S1024x768.rank) ∈ dot_S1024x768_S768x256_S1024x256_1_0_0_1_n_n.lhsBatch by decide), dif_pos (show (0 : Fin S1024x768.rank) ∈ dot_S1024x768_S768x256_S1024x256_1_0_0_1_n_n.lhsNonContracting by decide)]
  rfl
theorem proj_lhs1 (i : S1024x256.Idx) (q : dot_S1024x768_S768x256_S1024x256_1_0_0_1_n_n.contr.Idx) : (dot_S1024x768_S768x256_S1024x256_1_0_0_1_n_n.lhsIdx i q 1).val = (q ⟨0, by decide⟩).val :=
  dot_S1024x768_S768x256_S1024x256_1_0_0_1_n_n.lhsIdx_val_of_single rfl i q
theorem proj_rhs0 (i : S1024x256.Idx) (q : dot_S1024x768_S768x256_S1024x256_1_0_0_1_n_n.contr.Idx) : (dot_S1024x768_S768x256_S1024x256_1_0_0_1_n_n.rhsIdx i q 0).val = (q ⟨0, by decide⟩).val :=
  dot_S1024x768_S768x256_S1024x256_1_0_0_1_n_n.rhsIdx_val_of_single rfl i q
theorem proj_rhs1 (i : S1024x256.Idx) (q : dot_S1024x768_S768x256_S1024x256_1_0_0_1_n_n.contr.Idx) : (dot_S1024x768_S768x256_S1024x256_1_0_0_1_n_n.rhsIdx i q 1).val = (i 1).val := by
  unfold DotDims.rhsIdx
  rw [dif_neg (show ¬(1 : Fin S768x256.rank) ∈ dot_S1024x768_S768x256_S1024x256_1_0_0_1_n_n.rhsBatch by decide), dif_pos (show (1 : Fin S768x256.rank) ∈ dot_S1024x768_S768x256_S1024x256_1_0_0_1_n_n.rhsNonContracting by decide)]
  rfl

/-- Entry (i, j) of the product into a zero accumulator is the sum over k of A[i, k] * Bm[k, j]. -/
theorem proj_apply (A : FVec Ideal S1024x768 .bf16) (Bm : FVec Ideal S768x256 .bf16) (i : Fin 1024) (j : Fin 256) :
    matmul (F := Ideal) dot_S1024x768_S768x256_S1024x256_1_0_0_1_n_n none A Bm (constant (F := Ideal) S1024x256 .f32 0x00000000#32) (ix2 i j)
      = ∑ k : Fin 768, A (ix2 i k) * Bm (ix2 k j) := by
  simp only [matmul]
  rw [Ideal.matmul_constant_zero_apply, ← Equiv.sum_comp (contrEquiv1 dot_S1024x768_S768x256_S1024x256_1_0_0_1_n_n 768 rfl rfl).symm]
  refine Finset.sum_congr rfl fun k _ => ?_
  have hk := contrEquiv1_symm_val dot_S1024x768_S768x256_S1024x256_1_0_0_1_n_n 768 rfl rfl k
  have el : dot_S1024x768_S768x256_S1024x256_1_0_0_1_n_n.lhsIdx (ix2 i j) ((contrEquiv1 dot_S1024x768_S768x256_S1024x256_1_0_0_1_n_n 768 rfl rfl).symm k) = ix2 i k := funext fun a => Fin.ext (by
    match a with
    | ⟨0, _⟩ => exact proj_lhs0 _ _
    | ⟨1, _⟩ => exact (proj_lhs1 _ _).trans hk)
  have er : dot_S1024x768_S768x256_S1024x256_1_0_0_1_n_n.rhsIdx (ix2 i j) ((contrEquiv1 dot_S1024x768_S768x256_S1024x256_1_0_0_1_n_n 768 rfl rfl).symm k) = ix2 k j := funext fun a => Fin.ext (by
    match a with
    | ⟨0, _⟩ => exact (proj_rhs0 _ _).trans hk
    | ⟨1, _⟩ => exact proj_rhs1 _ _)
  rw [el, er]

/-! ## The Gram product: [2, 512, 128] with itself, batched over axis 0, contracted over axis 2 -/

theorem gram_lhs0 (i : S2x512x512.Idx) (q : dot_S2x512x128_S2x512x128_S2x512x512_2_2_1_1_0_0.contr.Idx) : (dot_S2x512x128_S2x512x128_S2x512x512_2_2_1_1_0_0.lhsIdx i q 0).val = (i 0).val := by
  unfold DotDims.lhsIdx
  rw [dif_pos (show (0 : Fin S2x512x128.rank) ∈ dot_S2x512x128_S2x512x128_S2x512x512_2_2_1_1_0_0.lhsBatch by decide)]
  rfl
theorem gram_lhs1 (i : S2x512x512.Idx) (q : dot_S2x512x128_S2x512x128_S2x512x512_2_2_1_1_0_0.contr.Idx) : (dot_S2x512x128_S2x512x128_S2x512x512_2_2_1_1_0_0.lhsIdx i q 1).val = (i 1).val := by
  unfold DotDims.lhsIdx
  rw [dif_neg (show ¬(1 : Fin S2x512x128.rank) ∈ dot_S2x512x128_S2x512x128_S2x512x512_2_2_1_1_0_0.lhsBatch by decide), dif_pos (show (1 : Fin S2x512x128.rank) ∈ dot_S2x512x128_S2x512x128_S2x512x512_2_2_1_1_0_0.lhsNonContracting by decide)]
  rfl
theorem gram_lhs2 (i : S2x512x512.Idx) (q : dot_S2x512x128_S2x512x128_S2x512x512_2_2_1_1_0_0.contr.Idx) : (dot_S2x512x128_S2x512x128_S2x512x512_2_2_1_1_0_0.lhsIdx i q 2).val = (q ⟨0, by decide⟩).val :=
  dot_S2x512x128_S2x512x128_S2x512x512_2_2_1_1_0_0.lhsIdx_val_of_single rfl i q
theorem gram_rhs0 (i : S2x512x512.Idx) (q : dot_S2x512x128_S2x512x128_S2x512x512_2_2_1_1_0_0.contr.Idx) : (dot_S2x512x128_S2x512x128_S2x512x512_2_2_1_1_0_0.rhsIdx i q 0).val = (i 0).val := by
  unfold DotDims.rhsIdx
  rw [dif_pos (show (0 : Fin S2x512x128.rank) ∈ dot_S2x512x128_S2x512x128_S2x512x512_2_2_1_1_0_0.rhsBatch by decide)]
  rfl
theorem gram_rhs1 (i : S2x512x512.Idx) (q : dot_S2x512x128_S2x512x128_S2x512x512_2_2_1_1_0_0.contr.Idx) : (dot_S2x512x128_S2x512x128_S2x512x512_2_2_1_1_0_0.rhsIdx i q 1).val = (i 2).val := by
  unfold DotDims.rhsIdx
  rw [dif_neg (show ¬(1 : Fin S2x512x128.rank) ∈ dot_S2x512x128_S2x512x128_S2x512x512_2_2_1_1_0_0.rhsBatch by decide), dif_pos (show (1 : Fin S2x512x128.rank) ∈ dot_S2x512x128_S2x512x128_S2x512x512_2_2_1_1_0_0.rhsNonContracting by decide)]
  rfl
theorem gram_rhs2 (i : S2x512x512.Idx) (q : dot_S2x512x128_S2x512x128_S2x512x512_2_2_1_1_0_0.contr.Idx) : (dot_S2x512x128_S2x512x128_S2x512x512_2_2_1_1_0_0.rhsIdx i q 2).val = (q ⟨0, by decide⟩).val :=
  dot_S2x512x128_S2x512x128_S2x512x512_2_2_1_1_0_0.rhsIdx_val_of_single rfl i q

/-- Entry (b, s, t) of the batched product into a zero accumulator is the sum over r of A[b, s, r] * Bm[b, t, r]. -/
theorem gram_apply (A Bm : FVec Ideal S2x512x128 .bf16) (b : Fin 2) (s t : Fin 512) :
    matmul (F := Ideal) dot_S2x512x128_S2x512x128_S2x512x512_2_2_1_1_0_0 none A Bm (constant (F := Ideal) S2x512x512 .f32 0x00000000#32) (ix3 b s t)
      = ∑ r : Fin 128, A (ix3 b s r) * Bm (ix3 b t r) := by
  simp only [matmul]
  rw [Ideal.matmul_constant_zero_apply, ← Equiv.sum_comp (contrEquiv1 dot_S2x512x128_S2x512x128_S2x512x512_2_2_1_1_0_0 128 rfl rfl).symm]
  refine Finset.sum_congr rfl fun r _ => ?_
  have hk := contrEquiv1_symm_val dot_S2x512x128_S2x512x128_S2x512x512_2_2_1_1_0_0 128 rfl rfl r
  have el : dot_S2x512x128_S2x512x128_S2x512x512_2_2_1_1_0_0.lhsIdx (ix3 b s t) ((contrEquiv1 dot_S2x512x128_S2x512x128_S2x512x512_2_2_1_1_0_0 128 rfl rfl).symm r) = ix3 b s r := funext fun a => Fin.ext (by
    match a with
    | ⟨0, _⟩ => exact gram_lhs0 _ _
    | ⟨1, _⟩ => exact gram_lhs1 _ _
    | ⟨2, _⟩ => exact (gram_lhs2 _ _).trans hk)
  have er : dot_S2x512x128_S2x512x128_S2x512x512_2_2_1_1_0_0.rhsIdx (ix3 b s t) ((contrEquiv1 dot_S2x512x128_S2x512x128_S2x512x512_2_2_1_1_0_0 128 rfl rfl).symm r) = ix3 b t r := funext fun a => Fin.ext (by
    match a with
    | ⟨0, _⟩ => exact gram_rhs0 _ _
    | ⟨1, _⟩ => exact gram_rhs1 _ _
    | ⟨2, _⟩ => exact (gram_rhs2 _ _).trans hk)
  rw [el, er]

/-! ## The lane sum -/

/-- The sum over the last axis from the zero accumulator, at (b, s), is the sum over r of the source at (b, s, r). -/
theorem lane_sum (v : FVec Ideal S2x512x128 .f32) (b : Fin 2) (s : Fin 512) :
    multiReduction (F := Ideal) .add [2] S2x512 v 0x00000000#32 reduces_S2x512x128_S2x512 (.inl rfl) rfl (ix2 b s)
      = ∑ r : Fin 128, v (ix3 b s r) := by
  refine (Ideal.multiReduction_add_single v 0x00000000#32 reduces_S2x512x128_S2x512 (.inl rfl) rfl (ix2 b s)).trans ?_
  refine Finset.sum_congr rfl fun r _ => congrArg v (funext fun a => Fin.ext ?_)
  match a with
  | ⟨0, _⟩ => rfl
  | ⟨1, _⟩ => rfl
  | ⟨2, _⟩ => rfl

/-! ## The layout steps -/

/-- Flattening the batch: row b * 512 + s of the [1024, 768] view is row (b, s). -/
theorem flatten_apply {α : Type} (x : S2x512x768.Idx → α) (b : Fin 2) (s : Fin 512) (k : Fin 768) :
    shapeCast S1024x768 x shapeCasts_S2x512x768_S1024x768 (ix2 (flatRow b s) k) = x (ix3 b s k) := by
  refine shapeCast_apply x _ _ _ ?_
  rw [Shape.rowMajor_val_three, Shape.rowMajor_val_two]
  show (b.val * 512 + s.val) * 768 + k.val = (b.val * 512 + s.val) * 768 + k.val
  rfl

/-- Un-flattening the product: entry (b, s, j) of the [2, 512, 256] view is entry (b * 512 + s, j). -/
theorem unflatten_apply {α : Type} (x : S1024x256.Idx → α) (b : Fin 2) (s : Fin 512) (j : Fin 256) :
    shapeCast S2x512x256 x shapeCasts_S1024x256_S2x512x256 (ix3 b s j) = x (ix2 (flatRow b s) j) := by
  refine shapeCast_apply x _ _ _ ?_
  rw [Shape.rowMajor_val_three, Shape.rowMajor_val_two]
  show (b.val * 512 + s.val) * 256 + j.val = (b.val * 512 + s.val) * 256 + j.val
  rfl

/-- The keepdims cast [2, 512] -> [2, 512, 1]. -/
theorem keepdims_apply {α : Type} (x : S2x512.Idx → α) (b : Fin 2) (s : Fin 512) :
    shapeCast S2x512x1 x shapeCasts_S2x512_S2x512x1 (ix3 b s (0 : Fin 1)) = x (ix2 b s) := by
  refine shapeCast_apply x _ _ _ ?_
  rw [Shape.rowMajor_val_three, Shape.rowMajor_val_two]
  show b.val * 512 + s.val = (b.val * 512 + s.val) * 1 + 0
  omega

/-- The first 128 columns of the projection. -/
theorem slice_lo_apply {α : Type} (x : S2x512x256.Idx → α) (b : Fin 2) (s : Fin 512) (r : Fin 128) :
    extractStridedSlice S2x512x128 ![0, 0, 0] x slices_S2x512x256_o0_0_0_S2x512x128 (ix3 b s r) = x (ix3 b s (lo r)) := by
  refine extractStridedSlice_apply _ x _ _ _ fun a => ?_
  match a with
  | ⟨0, _⟩ => show b.val = 0 + b.val; omega
  | ⟨1, _⟩ => show s.val = 0 + s.val; omega
  | ⟨2, _⟩ => show r.val = 0 + r.val; omega

/-- The last 128 columns of the projection. -/
theorem slice_hi_apply {α : Type} (x : S2x512x256.Idx → α) (b : Fin 2) (s : Fin 512) (r : Fin 128) :
    extractStridedSlice S2x512x128 ![0, 0, 128] x slices_S2x512x256_o0_0_128_S2x512x128 (ix3 b s r) = x (ix3 b s (hi r)) := by
  refine extractStridedSlice_apply _ x _ _ _ fun a => ?_
  match a with
  | ⟨0, _⟩ => show b.val = 0 + b.val; omega
  | ⟨1, _⟩ => show s.val = 0 + s.val; omega
  | ⟨2, _⟩ => show 128 + r.val = 128 + r.val; rfl

/-- A column [2, 512, 1] broadcast to [2, 512, 512] reads, at (b, s, t), the column at (b, s). -/
theorem bcast_col_apply {α : Type} (x : S2x512x1.Idx → α) (b : Fin 2) (s t : Fin 512) :
    broadcastTo S2x512x512 x broadcasts_S2x512x1_S2x512x512 (ix3 b s t) = x (ix3 b s (0 : Fin 1)) := by
  refine broadcastTo_apply x _ _ _ fun a => ?_
  match a with
  | ⟨0, _⟩ => show b.val = if (2 : Nat) = 1 then 0 else b.val; rw [if_neg (by decide)]
  | ⟨1, _⟩ => show s.val = if (512 : Nat) = 1 then 0 else s.val; rw [if_neg (by decide)]
  | ⟨2, _⟩ => show 0 = if (1 : Nat) = 1 then 0 else t.val; rw [if_pos rfl]

/-- A row [2, 1, 512] broadcast to [2, 512, 512] reads, at (b, s, t), the row at (b, t). -/
theorem bcast_row_apply {α : Type} (x : S2x1x512.Idx → α) (b : Fin 2) (s t : Fin 512) :
    broadcastTo S2x512x512 x broadcasts_S2x1x512_S2x512x512 (ix3 b s t) = x (ix3 b (0 : Fin 1) t) := by
  refine broadcastTo_apply x _ _ _ fun a => ?_
  match a with
  | ⟨0, _⟩ => show b.val = if (2 : Nat) = 1 then 0 else b.val; rw [if_neg (by decide)]
  | ⟨1, _⟩ => show 0 = if (1 : Nat) = 1 then 0 else s.val; rw [if_pos rfl]
  | ⟨2, _⟩ => show t.val = if (512 : Nat) = 1 then 0 else t.val; rw [if_neg (by decide)]

end Cert.PairDist.KernelOps

end
-- ==== Proof.Payload.lean ====
/-
  The kernel body's arithmetic, read entry by entry, in terms of the specification.

  From one block of two batches of embeddings x0 and the whole stacked projection x1 the body computes:
    * the projection table of the block (rounded operands are the operands themselves in exact arithmetic):
      entry (b, s, j) is the inner product of x0's row (b, s) with x1's row j;
    * for the depth output, written as a row [2, 1, 512]: entry (b, 0, s) is the squared norm of row (b, s) in the last 128
      projected coordinates;
    * for the distance output: entry (b, s, t) is the squared norms of rows s and t in the first 128 projected coordinates,
      added, less 2.0 times their Gram entry, clamped below at 0.0.
-/
import proofs.«155940_j90993177133168_2_alg».proof.Proof.Gen.KernelIdeal.Skeleton
import proofs.«155940_j90993177133168_2_alg».proof.Proof.KernelOps

noncomputable section

namespace Cert.PairDist.Payload

open Cert.KernelIdeal Cert.KernelIdeal.Gen Idealize.ShloMosaic Idealize.ShloMosaic.ValueIdx
open Cert.PairDist Cert.PairDist.KernelOps

/-- The projection of the block: entry (b, s, j). -/
theorem table_apply (x0 : Vec Ideal S2x512x768 .f32) (x1 : Vec Ideal S256x768 .f32) (b : Fin 2) (s : Fin 512) (j : Fin 256) :
    k0_pay1 (F := Ideal) x0 x1 (ix3 b s j) = prj x0 x1 b s j := by
  unfold k0_pay1
  refine (unflatten_apply _ b s j).trans ?_
  refine (proj_apply _ _ (flatRow b s) j).trans ?_
  unfold prj
  refine Finset.sum_congr rfl fun k _ => ?_
  refine congrArg₂ (· * ·) ((flatten_apply _ b s k).trans rfl) ((transpose_ix2_apply _ _ k j).trans ?_)
  exact congrFun (shapeCast_self x1 _) (ix2 j k)

/-- The distance half of the table: column r of the first 128. -/
theorem table_lo_apply (x0 : Vec Ideal S2x512x768 .f32) (x1 : Vec Ideal S256x768 .f32) (b : Fin 2) (s : Fin 512) (r : Fin 128) :
    extractStridedSlice S2x512x128 ![0, 0, 0] (k0_pay1 (F := Ideal) x0 x1) slices_S2x512x256_o0_0_0_S2x512x128 (ix3 b s r)
      = prj x0 x1 b s (lo r) :=
  (slice_lo_apply _ b s r).trans (table_apply x0 x1 b s (lo r))

/-- The depth half of the table: column r of the last 128. -/
theorem table_hi_apply (x0 : Vec Ideal S2x512x768 .f32) (x1 : Vec Ideal S256x768 .f32) (b : Fin 2) (s : Fin 512) (r : Fin 128) :
    extractStridedSlice S2x512x128 ![0, 0, 128] (k0_pay1 (F := Ideal) x0 x1) slices_S2x512x256_o0_0_128_S2x512x128 (ix3 b s r)
      = prj x0 x1 b s (hi r) :=
  (slice_hi_apply _ b s r).trans (table_apply x0 x1 b s (hi r))

/-- The keepdims column of squared norms in the distance subspace, at (b, s, 0). -/
theorem norm_apply (x0 : Vec Ideal S2x512x768 .f32) (x1 : Vec Ideal S256x768 .f32) (b : Fin 2) (s : Fin 512) :
    shapeCast S2x512x1
        (multiReduction (F := Ideal) .add [2] S2x512
          (mulf (extractStridedSlice S2x512x128 ![0, 0, 0] (k0_pay1 (F := Ideal) x0 x1) slices_S2x512x256_o0_0_0_S2x512x128)
            (extractStridedSlice S2x512x128 ![0, 0, 0] (k0_pay1 (F := Ideal) x0 x1) slices_S2x512x256_o0_0_0_S2x512x128))
          0x00000000#32 reduces_S2x512x128_S2x512 (.inl rfl) rfl)
        shapeCasts_S2x512_S2x512x1 (ix3 b s (0 : Fin 1))
      = sqn (prj x0 x1) b s := by
  refine (keepdims_apply _ b s).trans ?_
  refine (lane_sum _ b s).trans ?_
  unfold sqn
  exact Finset.sum_congr rfl fun r _ =>
    (mulf_apply _ _ _).trans (congrArg₂ (· * ·) (table_lo_apply x0 x1 b s r) (table_lo_apply x0 x1 b s r))

/-- The depth payload, a row [2, 1, 512]: entry (b, 0, s). -/
theorem depth_apply (x0 : Vec Ideal S2x512x768 .f32) (x1 : Vec Ideal S256x768 .f32) (b : Fin 2) (s : Fin 512) :
    k0_pay2 (F := Ideal) x0 x1 (ix3 b (0 : Fin 1) s) = depthQ (prj x0 x1) b s := by
  unfold k0_pay2
  refine (transpose_ix3_021_apply _ _ b (0 : Fin 1) s).trans ?_
  refine (keepdims_apply _ b s).trans ?_
  refine (lane_sum _ b s).trans ?_
  unfold depthQ
  exact Finset.sum_congr rfl fun r _ =>
    (mulf_apply _ _ _).trans (congrArg₂ (· * ·) (table_hi_apply x0 x1 b s r) (table_hi_apply x0 x1 b s r))

/-- The distance payload: entry (b, s, t). -/
theorem dist_apply (x0 : Vec Ideal S2x512x768 .f32) (x1 : Vec Ideal S256x768 .f32) (b : Fin 2) (s t : Fin 512) :
    k0_pay3 (F := Ideal) x0 x1 (ix3 b s t) = distQ (prj x0 x1) b s t := by
  unfold k0_pay3
  refine (maximumf_apply _ _ _).trans ?_
  unfold distQ
  refine congrArg₂ max ?_ rfl
  refine (subf_apply _ _ _).trans (congrArg₂ (· - ·) ?_ ?_)
  · refine (addf_apply _ _ _).trans (congrArg₂ (· + ·) ?_ ?_)
    · exact (bcast_col_apply _ b s t).trans (norm_apply x0 x1 b s)
    · refine (bcast_row_apply _ b s t).trans ?_
      exact (transpose_ix3_021_apply _ _ b (0 : Fin 1) t).trans (norm_apply x0 x1 b t)
  · refine (mulf_apply _ _ _).trans (congrArg₂ (· * ·) rfl ?_)
    refine (gram_apply _ _ b s t).trans ?_
    unfold gram
    exact Finset.sum_congr rfl fun r _ => congrArg₂ (· * ·) (table_lo_apply x0 x1 b s r) (table_lo_apply x0 x1 b t r)

end Cert.PairDist.Payload

end
-- ==== Proof.Arrays.lean ====
/-
  From blocks to whole arrays.

  The grid has four points; point t handles batches 2t and 2t + 1. The embeddings window's block at t is rows
  (2t + b, s, k) of the embeddings; the stacked projection's block is the whole matrix at every point. The distance
  window's block at t is entries (2t + b, s, u) of the [8, 512, 512] result and the depth window's block is entries
  (2t + b, 0, s) of the [8, 1, 512] result. So what point t writes back is block t of ONE function of the whole input
  arrays — the specification's distance entry, resp. depth entry, at the array's own batch index — and since the four blocks
  cover every batch, each result array ends holding that function.

  The stacked projection is written by the program itself before the kernel runs: rows 0..127 are the distance matrix's and
  rows 128..255 the depth matrix's. After the kernel the [8, 1, 512] depth array is reshaped to [8, 512].
-/
import proofs.«155940_j90993177133168_2_alg».proof.Proof.Gen.KernelIdeal.Frame
import proofs.«155940_j90993177133168_2_alg».proof.Proof.Payload
import Idealize.ShloMosaic.Lib.Pipeline.Value
import Idealize.ShloMosaic.Lib.StableHlo.Run

noncomputable section

namespace Cert.PairDist.Arrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.PairDist

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The result arrays as functions of the arrays the kernel is launched on -/

/-- The distance array: entry (β, s, u) is the specification's distance entry of batch β, rows s and u. -/
def distArr (E : S8x512x768.Idx → EReal) (St : S256x768.Idx → EReal) : S8x512x512.Idx → EReal :=
  fun i => distQ (prj E St) ⟨(i 0).val, (i 0).isLt⟩ ⟨(i 1).val, (i 1).isLt⟩ ⟨(i 2).val, (i 2).isLt⟩

/-- The depth array, a row per batch: entry (β, 0, s) is the specification's depth entry of batch β, row s. -/
def depthArr (E : S8x512x768.Idx → EReal) (St : S256x768.Idx → EReal) : S8x1x512.Idx → EReal :=
  fun i => depthQ (prj E St) ⟨(i 0).val, (i 0).isLt⟩ ⟨(i 2).val, (i 2).isLt⟩

theorem distQ_congr (q : Fin 8 → Fin 512 → Fin 256 → EReal) {b b' : Fin 8} {s s' u u' : Fin 512}
    (hb : b.val = b'.val) (hs : s.val = s'.val) (hu : u.val = u'.val) : distQ q b s u = distQ q b' s' u' := by
  obtain rfl := Fin.ext hb; obtain rfl := Fin.ext hs; obtain rfl := Fin.ext hu; rfl

theorem depthQ_congr (q : Fin 8 → Fin 512 → Fin 256 → EReal) {b b' : Fin 8} {s s' : Fin 512}
    (hb : b.val = b'.val) (hs : s.val = s'.val) : depthQ q b s = depthQ q b' s' := by
  obtain rfl := Fin.ext hb; obtain rfl := Fin.ext hs; rfl

/-! ## The index maps over the grid -/

/-- The printed index maps, decided over the four points: every window moves along the batch axis with the distance
    window, all other block indices are zero, and the batch block index is at most 3. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (1 : Fin 3) = 0 ∧ win0_2.index t (2 : Fin 3) = 0 ∧ win0_2.index t (0 : Fin 3) ≤ 3
    ∧ win0_3.index t (0 : Fin 3) = win0_2.index t (0 : Fin 3) ∧ win0_3.index t (1 : Fin 3) = 0 ∧ win0_3.index t (2 : Fin 3) = 0 :=
  (by decide +kernel : ∀ t : Fin grid0.N, _)

/-- Every pair of batches is some point's, for the distance window -/
theorem idx_onto2 : ∀ q : Fin 4, ∃ t : Fin cfg0.N, win0_2.index t = ![q.val, 0, 0] :=
  (by decide +kernel : ∀ q : Fin 4, ∃ t : Fin grid0.N, win0_2.index t = ![q.val, 0, 0])
/-- and for the depth window. -/
theorem idx_onto3 : ∀ q : Fin 4, ∃ t : Fin cfg0.N, win0_3.index t = ![q.val, 0, 0] :=
  (by decide +kernel : ∀ q : Fin 4, ∃ t : Fin grid0.N, win0_3.index t = ![q.val, 0, 0])

/-- The batch that row b of point t's blocks belongs to. -/
def batchAt (t : Fin cfg0.N) (b : Fin 2) : Fin 8 :=
  ⟨win0_2.index t (0 : Fin 3) * 2 + b.val, by have := (idx_facts t).2.2.2.2.2.2.2.1; have := b.isLt; omega⟩

/-! ## The input blocks -/

/-- The embeddings block at point t: row (b, s, k) is the array's row (2t + b, s, k). -/
theorem emb_block (c : Dev nD) (t : Fin cfg0.N) (b : Fin 2) (s : Fin 512) (k : Fin 768) :
    iblk m c 0 t (ix3 b s k) = V m c main_arg0 (ix3 (batchAt t b) s k) := by
  obtain ⟨e00, e01, e02, -⟩ := idx_facts t
  show V m c main_arg0 (((cfg0.win 0).blk t).view.emb (ix3 b s k)) = V m c main_arg0 (ix3 (batchAt t b) s k)
  have h : ((cfg0.win 0).blk t).view.emb (ix3 b s k) = ix3 (batchAt t b) s k := by
    funext a; apply Fin.ext
    match a with
    | ⟨0, _⟩ => show win0_0.index t (0 : Fin 3) * 2 + 1 * b.val = win0_2.index t (0 : Fin 3) * 2 + b.val; omega
    | ⟨1, _⟩ => show win0_0.index t (1 : Fin 3) * 512 + 1 * s.val = s.val; omega
    | ⟨2, _⟩ => show win0_0.index t (2 : Fin 3) * 768 + 1 * k.val = k.val; omega
  rw [h]

/-- The stacked projection's block at every point is the whole matrix. -/
theorem stack_block (c : Dev nD) (t : Fin cfg0.N) (j : Fin 256) (k : Fin 768) :
    iblk m c 1 t (ix2 j k) = V m c main_v0 (ix2 j k) := by
  obtain ⟨-, -, -, e10, e11, -⟩ := idx_facts t
  show V m c main_v0 (((cfg0.win 1).blk t).view.emb (ix2 j k)) = V m c main_v0 (ix2 j k)
  have h : ((cfg0.win 1).blk t).view.emb (ix2 j k) = ix2 j k := by
    funext a; apply Fin.ext
    match a with
    | ⟨0, _⟩ => show win0_1.index t (0 : Fin 2) * 256 + 1 * j.val = j.val; omega
    | ⟨1, _⟩ => show win0_1.index t (1 : Fin 2) * 768 + 1 * k.val = k.val; omega
  rw [h]

/-! ## The distance array -/

/-- What point t writes back to the distance array is block t of `distArr` of the arrays as the kernel finds them. -/
theorem dist_flushed (c : Dev nD) (t : Fin cfg0.N) :
    (dats m 0 c).flushed 2 t
      = ((cfg0.win 2).blk t).view.read (Elt Ideal) (distArr (V m c main_arg0) (V m c main_v0)) := by
  show (cfg0.win 2).cut (grid0.coords t) ((dats m 0 c).after 2 t) = _
  rw [after0_2]
  unfold out0_2
  rw [View.canon_unit_zero zero3]
  simp only [View.ld_unit_zero (S := S2x512x768) zero3, View.ld_unit_zero (S := S256x768) zero2]
  obtain ⟨-, -, -, -, -, e21, e22, -⟩ := idx_facts t
  funext y
  obtain ⟨b, s, u, rfl⟩ : ∃ (b : Fin 2) (s u : Fin 512), y = ix3 b s u := ⟨y 0, y 1, y 2, eq_ix3 y⟩
  show k0_pay3 (F := Ideal) (iblk m c 0 t) (iblk m c 1 t) (ix3 b s u)
    = distArr (V m c main_arg0) (V m c main_v0) (((cfg0.win 2).blk t).view.emb (ix3 b s u))
  refine (Payload.dist_apply (iblk m c 0 t) (iblk m c 1 t) b s u).trans ?_
  refine (distQ_block (V m c main_arg0) (iblk m c 0 t) (V m c main_v0) (iblk m c 1 t) (batchAt t)
    (emb_block m c t) (stack_block m c t) b s u).trans ?_
  unfold distArr
  refine distQ_congr _ ?_ ?_ ?_
  · show win0_2.index t (0 : Fin 3) * 2 + b.val = win0_2.index t (0 : Fin 3) * 2 + 1 * b.val; omega
  · show s.val = win0_2.index t (1 : Fin 3) * 512 + 1 * s.val; omega
  · show u.val = win0_2.index t (2 : Fin 3) * 512 + 1 * u.val; omega

/-- An entry of the distance array is in point t's block iff each coordinate is in the block's range. -/
theorem dist_mem_blk (t : Fin cfg0.N) (i : S8x512x512.Idx) :
    i ∈ ((cfg0.win 2).blk t).view.set ↔ ∀ a : Fin 3, win0_2.index t a * S2x512x512.size a ≤ (i a).val
      ∧ (i a).val < win0_2.index t a * S2x512x512.size a + S2x512x512.size a := by
  show i ∈ ((View.whole main_v1_0).slice (win0_2.rect t)).set ↔ _
  rw [View.set_slice_whole, Rect.mem_set_unit]
  exact Iff.rfl

/-- Every entry of the distance array is in the block of the point that handles its batch. -/
theorem dist_cover (i : S8x512x512.Idx) :
    ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 512 := (i 2).isLt
  obtain ⟨t, ht⟩ := idx_onto2 ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [dist_mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The distance array after the kernel. -/
theorem dist_final (c : Dev nD) : (dats m 0 c).arrAt 2 cfg0.N = distArr (V m c main_arg0) (V m c main_v0) :=
  (dats m 0 c).arrAt_eq_of_cover 2 _ (fun t _ => dist_flushed m c t) dist_cover

/-! ## The depth array -/

/-- What point t writes back to the depth array is block t of `depthArr` of the arrays as the kernel finds them. -/
theorem depth_flushed (c : Dev nD) (t : Fin cfg0.N) :
    (dats m 0 c).flushed 3 t
      = ((cfg0.win 3).blk t).view.read (Elt Ideal) (depthArr (V m c main_arg0) (V m c main_v0)) := by
  show (cfg0.win 3).cut (grid0.coords t) ((dats m 0 c).after 3 t) = _
  rw [after0_3]
  unfold out0_3
  rw [View.canon_unit_zero zero3]
  simp only [View.ld_unit_zero (S := S2x512x768) zero3, View.ld_unit_zero (S := S256x768) zero2]
  obtain ⟨-, -, -, -, -, -, -, -, e30, e31, e32⟩ := idx_facts t
  funext y
  obtain ⟨b, z, s, rfl⟩ : ∃ (b : Fin 2) (z : Fin 1) (s : Fin 512), y = ix3 b z s := ⟨y 0, y 1, y 2, eq_ix3 y⟩
  obtain rfl : z = 0 := Subsingleton.elim _ _
  show k0_pay2 (F := Ideal) (iblk m c 0 t) (iblk m c 1 t) (ix3 b (0 : Fin 1) s)
    = depthArr (V m c main_arg0) (V m c main_v0) (((cfg0.win 3).blk t).view.emb (ix3 b (0 : Fin 1) s))
  refine (Payload.depth_apply (iblk m c 0 t) (iblk m c 1 t) b s).trans ?_
  refine (depthQ_block (V m c main_arg0) (iblk m c 0 t) (V m c main_v0) (iblk m c 1 t) (batchAt t)
    (emb_block m c t) (stack_block m c t) b s).trans ?_
  unfold depthArr
  refine depthQ_congr _ ?_ ?_
  · show win0_2.index t (0 : Fin 3) * 2 + b.val = win0_3.index t (0 : Fin 3) * 2 + 1 * b.val; omega
  · show s.val = win0_3.index t (2 : Fin 3) * 512 + 1 * s.val; omega

/-- An entry of the depth array is in point t's block iff each coordinate is in the block's range. -/
theorem depth_mem_blk (t : Fin cfg0.N) (i : S8x1x512.Idx) :
    i ∈ ((cfg0.win 3).blk t).view.set ↔ ∀ a : Fin 3, win0_3.index t a * S2x1x512.size a ≤ (i a).val
      ∧ (i a).val < win0_3.index t a * S2x1x512.size a + S2x1x512.size a := by
  show i ∈ ((View.whole main_v1_1).slice (win0_3.rect t)).set ↔ _
  rw [View.set_slice_whole, Rect.mem_set_unit]
  exact Iff.rfl

/-- Every entry of the depth array is in the block of the point that handles its batch. -/
theorem depth_cover (i : S8x1x512.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 512 := (i 2).isLt
  obtain ⟨t, ht⟩ := idx_onto3 ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [depth_mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 1 ≤ (i 1).val ∧ (i 1).val < win0_3.index t (1 : Fin 3) * 1 + 1; omega
  | ⟨2, _⟩ => show win0_3.index t (2 : Fin 3) * 512 ≤ (i 2).val ∧ (i 2).val < win0_3.index t (2 : Fin 3) * 512 + 512; omega

/-- The depth array after the kernel. -/
theorem depth_final (c : Dev nD) : (dats m 0 c).arrAt 3 cfg0.N = depthArr (V m c main_arg0) (V m c main_v0) :=
  (dats m 0 c).arrAt_eq_of_cover 3 _ (fun t _ => depth_flushed m c t) depth_cover

end Cert.PairDist.Arrays

end
-- ==== Proof.SpecArr.lean ====
/-
  The reference's two results as whole arrays: entry (β, s, u) of the distances and entry (β, s) of the depths are the
  specification's reference entries at those coordinates.
-/
import proofs.«155940_j90993177133168_2_alg».proof.Proof.Spec

noncomputable section

namespace Cert.PairDist

open Idealize.ShloMosaic

/-- The [8, 512, 512] array of reference distance entries. -/
def refDistArr (E : (⟨3, ![8, 512, 768]⟩ : Shape).Idx → EReal) (P : (⟨2, ![128, 768]⟩ : Shape).Idx → EReal) :
    (⟨3, ![8, 512, 512]⟩ : Shape).Idx → EReal :=
  fun i => refDist E P ⟨(i 0).val, (i 0).isLt⟩ ⟨(i 1).val, (i 1).isLt⟩ ⟨(i 2).val, (i 2).isLt⟩

/-- The [8, 512] array of reference depth entries. -/
def refDepthArr (E : (⟨3, ![8, 512, 768]⟩ : Shape).Idx → EReal) (P : (⟨2, ![128, 768]⟩ : Shape).Idx → EReal) :
    (⟨2, ![8, 512]⟩ : Shape).Idx → EReal :=
  fun i => refDepth E P ⟨(i 0).val, (i 0).isLt⟩ ⟨(i 1).val, (i 1).isLt⟩

end Cert.PairDist

end
-- ==== Proof.KernelRun.lean ====
/-
  The idealized kernel's run, with both results named as functions of the three arguments.

  Before the kernel the program stacks the two projection matrices: rows 0..127 of the stacked matrix are the distance
  matrix's rows, rows 128..255 the depth matrix's. After it the [8, 1, 512] depth array is reshaped to [8, 512], so entry
  (β, s) of the result is entry (β, 0, s) of the array. With the arrays of the previous module:
    * the depth result is the reference's depth array, for any arguments (the two sums are the same sum);
    * the distance result is the reference's distance array when every entry of the embeddings and of the distance matrix
      is a real number (the Gram identity needs it).
-/
import proofs.«155940_j90993177133168_2_alg».proof.Proof.Arrays
import proofs.«155940_j90993177133168_2_alg».proof.Proof.SpecArr

noncomputable section

namespace Cert.PairDist.KernelRun

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.PairDist Cert.PairDist.Arrays

variable (m : (ℓ : Loc nD τ sig) → Buf (Elt Ideal) ℓ) (ρ : Dev nD → PrngReg)

/-! ## The stacked projection -/

/-- The stacked matrix as the kernel finds it is the two projection matrices, one above the other. -/
theorem stack_eq (c : Dev nD) :
    (V m c main_v0 : S256x768.Idx → EReal)
      = concatenate S256x768 0 [⟨S128x768, m ((c.tc : Thread nD τ).loc main_arg1)⟩, ⟨S128x768, m ((c.tc : Thread nD τ).loc main_arg2)⟩]
          concatenates_S128x768_S128x768_S256x768_d0 := by
  show StableHlo.after hostOps0 (fun b => m (c, b)) (Proc.devRef .tc main_v0) = _
  after_results

/-- Its first 128 rows are the distance matrix's. -/
theorem stack_lo (c : Dev nD) (r : Fin 128) (k : Fin 768) :
    V m c main_v0 (ix2 (lo r) k) = m ((c.tc : Thread nD τ).loc main_arg1) (ix2 r k) := by
  rw [stack_eq]
  exact concatenate_pair_apply_left (t := S256x768) (s₁ := S128x768) (s₂ := S128x768) 0 _ _ _ (ix2 (lo r) k)
    (rfl : S128x768.rank = S256x768.rank) (ix2 r k)
    (fun a => match a with | ⟨0, _⟩ => rfl | ⟨1, _⟩ => rfl)

/-- Its last 128 rows are the depth matrix's. -/
theorem stack_hi (c : Dev nD) (r : Fin 128) (k : Fin 768) :
    V m c main_v0 (ix2 (hi r) k) = m ((c.tc : Thread nD τ).loc main_arg2) (ix2 r k) := by
  rw [stack_eq]
  exact concatenate_pair_apply_right (t := S256x768) (s₁ := S128x768) (s₂ := S128x768) 0 _ _ _ (ix2 (hi r) k)
    (rfl : S128x768.rank = S256x768.rank) (rfl : S128x768.rank = S256x768.rank) (ix2 r k)
    (fun a ha => match a with | ⟨0, _⟩ => absurd rfl ha | ⟨1, _⟩ => rfl)
    (by show r.val + 128 = 128 + r.val; omega)

/-! ## The reshape after the kernel -/

/-- What the program's last line leaves in the depth result: the reshape of the depth array after the kernel. -/
theorem tail_eq (c : Dev nD) :
    Pipeline.afterTail₀ cfgs (dats m) 0 (V0 m) [hostOps1] c main_v2
      = shapeCast S8x512 ((dats m 0 c).arrAt 3 cfg0.N) shapeCasts_S8x1x512_S8x512 := by
  have hw : Pipeline.withArrays spec0 c (V0 m c) (fun w => (dats m 0 c).arrAt w cfg0.N) (Proc.devRef .tc (Pipeline.arrRef spec0 3))
      = (dats m 0 c).arrAt 3 cfg0.N := Pipeline.withArrays_arr spec0 launch0.win.arr_inj c _ _ 3
  unfold Pipeline.afterTail₀
  show StableHlo.after hostOps1 _ (Proc.devRef .tc main_v2) = _
  after_results
  show shapeCast S8x512 (Pipeline.withArrays spec0 c (V0 m c) (fun w => (dats m 0 c).arrAt w cfg0.N)
    (Proc.devRef .tc (Pipeline.arrRef spec0 3))) shapeCasts_S8x1x512_S8x512 = _
  rw [hw]

/-- Dropping the unit axis: entry (β, s) of the [8, 512] view is entry (β, 0, s). -/
theorem squeeze_apply {α : Type} (x : S8x1x512.Idx → α) (b : Fin 8) (s : Fin 512) :
    shapeCast S8x512 x shapeCasts_S8x1x512_S8x512 (ix2 b s) = x (ix3 b (0 : Fin 1) s) := by
  refine shapeCast_apply x _ _ _ ?_
  rw [Shape.rowMajor_val_three, Shape.rowMajor_val_two]
  show (b.val * 1 + 0) * 512 + s.val = b.val * 512 + s.val
  omega

/-! ## The two results against the reference's arrays -/

/-- The depth result is the reference's depth array. -/
theorem depth_bridge (c : Dev nD) :
    shapeCast S8x512 (depthArr (m ((c.tc : Thread nD τ).loc main_arg0)) (V m c main_v0)) shapeCasts_S8x1x512_S8x512
      = refDepthArr (m ((c.tc : Thread nD τ).loc main_arg0)) (m ((c.tc : Thread nD τ).loc main_arg2)) := by
  funext i
  obtain ⟨b, s, rfl⟩ : ∃ (b : Fin 8) (s : Fin 512), i = ix2 b s := ⟨i 0, i 1, eq_ix2 i⟩
  refine (squeeze_apply _ b s).trans ?_
  exact depthQ_eq_refDepth _ _ _ (stack_hi m c) b s

/-- The distance result is the reference's distance array when the embeddings and the distance matrix hold real numbers. -/
theorem dist_bridge (c : Dev nD)
    (hE : ∀ i, ∃ x : ℝ, m ((c.tc : Thread nD τ).loc main_arg0) i = (x : EReal))
    (hP : ∀ i, ∃ x : ℝ, m ((c.tc : Thread nD τ).loc main_arg1) i = (x : EReal)) :
    distArr (m ((c.tc : Thread nD τ).loc main_arg0)) (V m c main_v0)
      = refDistArr (m ((c.tc : Thread nD τ).loc main_arg0)) (m ((c.tc : Thread nD τ).loc main_arg1)) := by
  funext i
  exact distQ_eq_refDist _ _ _ (stack_lo m c) hE hP _ _ _

/-! ## The run -/

/-- Every weakly fair execution of the idealized kernel program terminates, with the distance result at `distArr` of the
    embeddings and the stacked matrix, the depth result at the reshape of `depthArr` of them, and the arguments unchanged. -/
theorem run : θ_run defs (onTc (τ := τ) (main (F := Ideal))) ⟨m, fun _ => 0, ρ⟩ fun r => ∀ c : Dev nD,
      r.2.mem ((c.tc : Thread nD τ).loc main_v1_0) = distArr (m ((c.tc : Thread nD τ).loc main_arg0)) (V m c main_v0)
      ∧ r.2.mem ((c.tc : Thread nD τ).loc main_v2)
          = shapeCast S8x512 (depthArr (m ((c.tc : Thread nD τ).loc main_arg0)) (V m c main_v0)) shapeCasts_S8x1x512_S8x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).1 2).trans ((dist_final m c).trans (by rw [V_main_arg0])),
      ((h c).2 main_v2 (Pipeline.mem_restRefs_of main_v2 (by decide) (by decide))).trans
        ((tail_eq m c).trans (by rw [depth_final, V_main_arg0])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.PairDist.KernelRun

end
-- ==== Proof.RefRead.lean ====
/-
  The reference's two results, read entry by entry.

  The reference projects the embeddings by the distance matrix (a contraction over the 768 features), lays the projected
  rows out twice in a [8, 512, 512, 128] array — once repeated along the third axis, once along the second —, subtracts,
  squares and sums over the 128 projected coordinates from the zero literal: entry (b, s, t) is
  0 + sum_r (p[b,s,r] - p[b,t,r])^2. The depth result is 0 + sum_r p'[b,s,r]^2 with p' the projection by the depth matrix.
  Each layout step reads its operand at one index; composing those index maps at (b, s, t, r) gives (b, s, r) on one side
  and (b, t, r) on the other.
-/
import proofs.«155940_j90993177133168_2_alg».proof.Proof.Gen.ReferenceIdeal.Read
import proofs.«155940_j90993177133168_2_alg».proof.Proof.Spec

noncomputable section

namespace Cert.PairDist.RefRead

open Cert.ReferenceIdeal Cert.ReferenceIdeal.Read Idealize.ShloMosaic Idealize.ShloMosaic.ValueIdx Cert.PairDist

/-- Along the first broadcast chain the summand (b, s, t, r) reads embedding row (b, s). -/
theorem lrow_s (b : Fin 8) (s t : Fin 512) (r : Fin 128) (k : Fin 768) :
    lidx_main_v0 (idx_main_v1 (idx_main_v3 (idx_main_v7 (ix3 b s t) r))) k = ix3 b s k :=
  funext fun a => Fin.ext (by match a with | ⟨0, _⟩ => rfl | ⟨1, _⟩ => rfl | ⟨2, _⟩ => rfl)
/-- Along the second it reads embedding row (b, t). -/
theorem lrow_t (b : Fin 8) (s t : Fin 512) (r : Fin 128) (k : Fin 768) :
    lidx_main_v0 (idx_main_v2 (idx_main_v4 (idx_main_v7 (ix3 b s t) r))) k = ix3 b t k :=
  funext fun a => Fin.ext (by match a with | ⟨0, _⟩ => rfl | ⟨1, _⟩ => rfl | ⟨2, _⟩ => rfl)
/-- Both read projection row r. -/
theorem rrow_s (b : Fin 8) (s t : Fin 512) (r : Fin 128) (k : Fin 768) :
    ridx_main_v0 (idx_main_v1 (idx_main_v3 (idx_main_v7 (ix3 b s t) r))) k = ix2 r k :=
  funext fun a => Fin.ext (by match a with | ⟨0, _⟩ => rfl | ⟨1, _⟩ => rfl)
theorem rrow_t (b : Fin 8) (s t : Fin 512) (r : Fin 128) (k : Fin 768) :
    ridx_main_v0 (idx_main_v2 (idx_main_v4 (idx_main_v7 (ix3 b s t) r))) k = ix2 r k :=
  funext fun a => Fin.ext (by match a with | ⟨0, _⟩ => rfl | ⟨1, _⟩ => rfl)

/-- The distance result at (b, s, t) is the specification's reference entry. -/
theorem dist_apply (x0 : (⟨S8x512x768, .f32⟩ : BufTy).Contents (Elt Ideal)) (x1 : (⟨S128x768, .f32⟩ : BufTy).Contents (Elt Ideal))
    (b : Fin 8) (s t : Fin 512) :
    val_main_v7 (F := Ideal) x0 x1 (ix3 b s t) = refDist x0 x1 b s t := by
  rw [val_main_v7_apply, val_main_cst_apply]
  unfold refDist refPrj
  show Ideal.ofBits .f32 0x00000000#32 + _ = Ideal.ofBits .f32 0x00000000#32 + _
  refine congrArg (Ideal.ofBits .f32 0x00000000#32 + ·) (Finset.sum_congr rfl fun r _ => ?_)
  rw [val_main_v6_apply, val_main_v5_apply, val_main_v3_apply, val_main_v4_apply, val_main_v1_apply, val_main_v2_apply,
    val_main_v0_apply, val_main_v0_apply]
  simp only [lrow_s, lrow_t, rrow_s, rrow_t]
  rfl

/-- The depth result's summand (b, s, r) reads embedding row (b, s) and projection row r. -/
theorem lrow_d (b : Fin 8) (s : Fin 512) (r : Fin 128) (k : Fin 768) :
    lidx_main_v8 (idx_main_v10 (ix2 b s) r) k = ix3 b s k :=
  funext fun a => Fin.ext (by match a with | ⟨0, _⟩ => rfl | ⟨1, _⟩ => rfl | ⟨2, _⟩ => rfl)
theorem rrow_d (b : Fin 8) (s : Fin 512) (r : Fin 128) (k : Fin 768) :
    ridx_main_v8 (idx_main_v10 (ix2 b s) r) k = ix2 r k :=
  funext fun a => Fin.ext (by match a with | ⟨0, _⟩ => rfl | ⟨1, _⟩ => rfl)

/-- The depth result at (b, s) is the specification's reference entry. -/
theorem depth_apply (x0 : (⟨S8x512x768, .f32⟩ : BufTy).Contents (Elt Ideal)) (x2 : (⟨S128x768, .f32⟩ : BufTy).Contents (Elt Ideal))
    (b : Fin 8) (s : Fin 512) :
    val_main_v10 (F := Ideal) x0 x2 (ix2 b s) = refDepth x0 x2 b s := by
  rw [val_main_v10_apply, val_main_cst_0_apply]
  unfold refDepth refPrj
  show Ideal.ofBits .f32 0x00000000#32 + _ = Ideal.ofBits .f32 0x00000000#32 + _
  refine congrArg (Ideal.ofBits .f32 0x00000000#32 + ·) (Finset.sum_congr rfl fun r _ => ?_)
  rw [val_main_v9_apply, val_main_v8_apply]
  simp only [lrow_d, rrow_d]
  rfl

end Cert.PairDist.RefRead

end
-- ==== Proof.RefArr.lean ====
/-
  The reference's two result arrays are the specification's reference arrays (every entry, by the entry-wise reading).
-/
import proofs.«155940_j90993177133168_2_alg».proof.Proof.RefRead
import proofs.«155940_j90993177133168_2_alg».proof.Proof.SpecArr

noncomputable section

namespace Cert.PairDist.RefRead

open Cert.ReferenceIdeal Cert.ReferenceIdeal.Read Idealize.ShloMosaic Idealize.ShloMosaic.ValueIdx Cert.PairDist

theorem dist_eq (x0 : (⟨S8x512x768, .f32⟩ : BufTy).Contents (Elt Ideal)) (x1 : (⟨S128x768, .f32⟩ : BufTy).Contents (Elt Ideal)) :
    val_main_v7 (F := Ideal) x0 x1 = refDistArr x0 x1 := by
  funext i
  obtain ⟨b, s, u, rfl⟩ : ∃ (b : Fin 8) (s u : Fin 512), i = ix3 b s u := ⟨i 0, i 1, i 2, eq_ix3 i⟩
  exact dist_apply x0 x1 b s u

theorem depth_eq (x0 : (⟨S8x512x768, .f32⟩ : BufTy).Contents (Elt Ideal)) (x2 : (⟨S128x768, .f32⟩ : BufTy).Contents (Elt Ideal)) :
    val_main_v10 (F := Ideal) x0 x2 = refDepthArr x0 x2 := by
  funext i
  obtain ⟨b, s, rfl⟩ : ∃ (b : Fin 8) (s : Fin 512), i = ix2 b s := ⟨i 0, i 1, eq_ix2 i⟩
  exact depth_apply x0 x2 b s

end Cert.PairDist.RefRead

end
-- ==== Proof.Finite.lean ====
/-
  The precondition, read back: every entry of the three inputs is a real number.

  The precondition is the conjunction, input by input, of "for all entries, |x| < +infinity". As a program it compares the
  absolute value of each entry with the pattern of +infinity, reduces each array of one-bit answers by `and` from 1, and
  `and`s the three results. If the outcome is 1 then each reduction is 1, so each comparison is 1 at every entry, and an
  extended real whose absolute value is below +infinity is a real number.
-/
import proofs.«155940_j90993177133168_2_alg».proof.Pre_finite_inputs
import proofs.«155940_j90993177133168_2_alg».proof.Proof.Gen.Pre_finite_inputs
import proofs.«155940_j90993177133168_2_alg».proof.Proof.ERealLaws
import Idealize.ShloMosaic.Lib.ReduceAll
import Idealize.ShloMosaic.Lib.ValueIdx

noncomputable section

namespace Cert.PairDist.Finite

open Idealize.ShloMosaic Cert.Pre_finite_inputs Cert.Pre_finite_inputs.Facts Cert.PairDist

/-- The rank-0 shape has one index. -/
instance : Subsingleton S_.Idx := ⟨fun a b => funext fun d => d.elim0⟩

/-- A comparison "|x| < +infinity" that came out 1 says x is a real number. -/
theorem real_of_cmp (x : EReal) (h : Ideal.cmp .olt (max x (-x)) (Ideal.ofBits .f32 0x7F800000#32) = 1#1) :
    ∃ r : ℝ, x = (r : EReal) := by
  rw [ofBits_inf] at h
  by_cases hlt : max x (-x) < ⊤
  · exact real_of_abs_lt_top x hlt
  · simp [Ideal.cmp, hlt] at h

/-- The precondition all ones gives: every entry of every input is a real number. -/
theorem real_of_pre (a0 : FVec Ideal S8x512x768 .f32) (a1 a2 : FVec Ideal S128x768 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_cmp _ (Host.reduce_andi_all _ _ _ _ _ h0' i)
  · exact real_of_cmp _ (Host.reduce_andi_all _ _ _ _ _ h1 i)
  · exact real_of_cmp _ (Host.reduce_andi_all _ _ _ _ _ h2 i)

end Cert.PairDist.Finite

end
-- ==== Proof.lean ====
/-
  Pairwise squared distances and depths of projected embeddings: the kernel against its reference.

  Inputs: embeddings E[β, s, k] (8 batches of 512 rows of 768 numbers) and two 128 x 768 projection matrices, one for
  "distance" and one for "depth". With p = E projected by the distance matrix and p' = E projected by the depth matrix,
  the reference returns distances[β, s, u] = sum_r (p[β,s,r] - p[β,u,r])^2 and depths[β, s] = sum_r p'[β,s,r]^2.

  The kernel stacks the two matrices, and per pair of batches computes ONE product of the embeddings with the stacked
  matrix; from its first 128 columns it forms the squared norms n[β,s] and the Gram matrix g[β,s,u] and stores
  max (n[β,s] + n[β,u] - 2 g[β,s,u]) 0; from its last 128 columns it stores the squared norms as the depths. In exact
  arithmetic on real numbers n[s] + n[u] - 2 g[s,u] IS the sum of squared differences, which is non-negative, so the clamp
  is the identity: the two programs agree. The identity moves a factor across a sum and cancels, which is not valid at the
  infinities of the extended reals, so the precondition (all inputs finite) is used for the distances; the depths are the
  same sum on both sides and need nothing.

  The proof: the three frames are the generated ones (the reference's is its generated run with the results dropped); the
  one rewrite of the idealization (a round trip through bf16 removed) is its rule's statement; for the value claim the
  kernel's run is read block by block and assembled into whole arrays (Proof/Arrays.lean, Proof/KernelRun.lean), the
  reference's run is read entry by entry (Proof/RefRead.lean), and the Gram identity joins them (Proof/Spec.lean,
  Proof/ERealLaws.lean) under the finiteness read off the precondition (Proof/Finite.lean).
-/
import proofs.«155940_j90993177133168_2_alg».proof.Defs
import proofs.«155940_j90993177133168_2_alg».proof.Proof.Gen.Kernel
import proofs.«155940_j90993177133168_2_alg».proof.Proof.Gen.Kernel.Skeleton
import proofs.«155940_j90993177133168_2_alg».proof.Proof.Gen.Kernel.Launch
import proofs.«155940_j90993177133168_2_alg».proof.Proof.Gen.Kernel.Points
import proofs.«155940_j90993177133168_2_alg».proof.Proof.Gen.Kernel.Frame
import proofs.«155940_j90993177133168_2_alg».proof.Proof.Gen.KernelIdeal
import proofs.«155940_j90993177133168_2_alg».proof.Proof.Gen.KernelIdeal.Skeleton
import proofs.«155940_j90993177133168_2_alg».proof.Proof.Gen.KernelIdeal.Launch
import proofs.«155940_j90993177133168_2_alg».proof.Proof.Gen.KernelIdeal.Points
import proofs.«155940_j90993177133168_2_alg».proof.Proof.Gen.KernelIdeal.Frame
import proofs.«155940_j90993177133168_2_alg».proof.Proof.Gen.ReferenceIdeal
import proofs.«155940_j90993177133168_2_alg».proof.Proof.Gen.ReferenceIdeal.Run
import proofs.«155940_j90993177133168_2_alg».proof.Proof.Gen.ReferenceIdeal.Read
import proofs.«155940_j90993177133168_2_alg».proof.Proof.Gen.Pre_finite_inputs
import proofs.«155940_j90993177133168_2_alg».proof.Proof.KernelRun
import proofs.«155940_j90993177133168_2_alg».proof.Proof.RefArr
import proofs.«155940_j90993177133168_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization's one rewrite: rounding the distance half of the projection to bf16 and widening it back is the
    identity in exact arithmetic. -/
theorem preserves : Cert.preserves_Kernel_KernelIdeal :=
  IdealRules.truncf_extf.statement _ .f32 .bf16

/-- On finite inputs the idealized kernel and the idealized reference end with equal distances and equal depths. -/
theorem algebraic : Cert.algebraic_KernelIdeal_ReferenceIdeal := by
  intro m ρ m' ρ' hpre hagree
  refine ⟨_, _, Cert.PairDist.KernelRun.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨hE, hP, -⟩ := Cert.PairDist.Finite.real_of_pre _ _ _ (hpre c)
    rw [(hagree c).1, (hagree c).2.1, Cert.ReferenceIdeal.Read.val_main_v7_eq, Cert.PairDist.RefRead.dist_eq]
    exact (Cert.PairDist.KernelRun.dist_bridge m c hE hP).symm
  · rw [(hagree c).1, (hagree c).2.2, Cert.ReferenceIdeal.Read.val_main_v10_eq, Cert.PairDist.RefRead.depth_eq]
    exact (Cert.PairDist.KernelRun.depth_bridge m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
